-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S4x4096 : Shape := ⟨2, ![4, 4096]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  main_v18

def fn {F : FTy → Type} [FloatOps F] (main_arg0 : FVec F S4x16x4096x64 .f32) (main_arg1 : FVec F S4x16x4096x64 .f32) (main_arg2 : FVec F S4x16x4096x64 .f32) (main_arg3 : FVec F S4x4096 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_v13 main_v16
-- ==== Kernel.lean ====
abbrev S4x16x4096x64 : Shape := ⟨4, ![4, 16, 4096, 64]⟩
abbrev S4x4096 : Shape := ⟨2, ![4, 4096]⟩
abbrev S4x1x4096x1 : Shape := ⟨4, ![4, 1, 4096, 1]⟩
abbrev S1x4x4096x64 : Shape := ⟨4, ![1, 4, 4096, 64]⟩
abbrev S1x1x4096x1 : Shape := ⟨4, ![1, 1, 4096, 1]⟩
abbrev S4x4096x64 : Shape := ⟨3, ![4, 4096, 64]⟩
abbrev S4096x1 : Shape := ⟨2, ![4096, 1]⟩
abbrev S1x4096x1 : Shape := ⟨3, ![1, 4096, 1]⟩
abbrev S4x4096x1 : Shape := ⟨3, ![4, 4096, 1]⟩
abbrev S4x64 : Shape := ⟨2, ![4, 64]⟩
abbrev S4x1x64 : Shape := ⟨3, ![4, 1, 64]⟩
abbrev S4x64x64 : Shape := ⟨3, ![4, 64, 64]⟩

abbrev nBuf : Space → Nat
  | .hbm => 6
  | .vmem => 10
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x4096, .f32⟩
  | .hbm, ⟨4, _⟩ => ⟨S4x1x4096x1, .f32⟩
  | .hbm, ⟨5, _⟩ => ⟨S4x16x4096x64, .f32⟩
  | .local _ .vmem, ⟨0, _⟩ => ⟨S1x4x4096x64, .f32⟩
  | .local _ .vmem, ⟨1, _⟩ => ⟨S1x4x4096x64, .f32⟩
  | .local _ .vmem, ⟨2, _⟩ => ⟨S1x4x4096x64, .f32⟩
  | .local _ .vmem, ⟨3, _⟩ => ⟨S1x4x4096x64, .f32⟩
  | .local _ .vmem, ⟨4, _⟩ => ⟨S1x4x4096x64, .f32⟩
  | .local _ .vmem, ⟨5, _⟩ => ⟨S1x4x4096x64, .f32⟩
  | .local _ .vmem, ⟨6, _⟩ => ⟨S1x1x4096x1, .f32⟩
  | .local _ .vmem, ⟨7, _⟩ => ⟨S1x1x4096x1, .f32⟩
  | .local _ .vmem, ⟨8, _⟩ => ⟨S1x4x4096x64, .f32⟩
  | .local _ .vmem, ⟨9, _⟩ => ⟨S1x4x4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S4x4096_S4x1x4096x1_0_2 : S4x4096.BroadcastsInDim S4x1x4096x1 (![0, 2] : Fin 2 → Fin S4x1x4096x1.rank)
  inb_S1x4x4096x64_S1x4x4096x64_0_0_0_0 : ∀ a, (![0, 0, 0, 0] : Fin 4 → Nat) a + S1x4x4096x64.size a ≤ S1x4x4096x64.size a
  h_S1x4x4096x64 : 0 < S1x4x4096x64.numel
  shapeCasts_S1x4x4096x64_S4x4096x64 : S1x4x4096x64.ShapeCasts S4x4096x64
  inb_S1x1x4096x1_S1x1x4096x1_0_0_0_0 : ∀ a, (![0, 0, 0, 0] : Fin 4 → Nat) a + S1x1x4096x1.size a ≤ S1x1x4096x1.size a
  h_S1x1x4096x1 : 0 < S1x1x4096x1.numel
  shapeCasts_S1x1x4096x1_S4096x1 : S1x1x4096x1.ShapeCasts S4096x1
  shapeCasts_S4096x1_S1x4096x1 : S4096x1.ShapeCasts S1x4096x1
  broadcasts_S1x4096x1_S4x4096x64 : S1x4096x1.Broadcasts S4x4096x64
  reduces_S4x4096x64_S4x4096 : S4x4096x64.Reduces [2] S4x4096
  shapeCasts_S4x4096_S4x4096x1 : S4x4096.ShapeCasts S4x4096x1
  broadcasts_S4x4096x1_S4x4096x64 : S4x4096x1.Broadcasts S4x4096x64
  reduces_S4x4096x64_S4x64 : S4x4096x64.Reduces [1] S4x64
  shapeCasts_S4x64_S4x1x64 : S4x64.ShapeCasts S4x1x64
  broadcasts_S4x1x64_S4x4096x64 : S4x1x64.Broadcasts S4x4096x64
  shapeCasts_S4x4096x64_S1x4x4096x64 : S4x4096x64.ShapeCasts S1x4x4096x64
  dot_S4x4096x64_S4x4096x64_S4x64x64_1_1_2_2_0_0_wf : DotDims.WF S4x4096x64 S4x4096x64 S4x64x64 [1] [1] [2] [2] [0] [0]
  dot_S4x4096x64_S4x64x64_S4x4096x64_2_1_1_2_0_0_wf : DotDims.WF S4x4096x64 S4x64x64 S4x4096x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4096x64.size a ≤ S4x16x4096x64.size a
  hwx0_0 : ∀ i : grid0.Coords, EltTy.bits .f32 = 32 ∨ (Rect.block (s := S4x16x4096x64) S1x4x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x4096x64.size a ≤ S4x16x4096x64.size a
  hwx0_1 : ∀ i : grid0.Coords, EltTy.bits .f32 = 32 ∨ (Rect.block (s := S4x16x4096x64) S1x4x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4096x64.size a ≤ S4x16x4096x64.size a
  hwx0_2 : ∀ i : grid0.Coords, EltTy.bits .f32 = 32 ∨ (Rect.block (s := S4x16x4096x64) S1x4x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x1.size a ≤ S4x1x4096x1.size a
  hwx0_3 : ∀ i : grid0.Coords, EltTy.bits .f32 = 32 ∨ (Rect.block (s := S4x1x4096x1) S1x1x4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x4096x64.size a ≤ S4x16x4096x64.size a
  hwx0_4 : ∀ i : grid0.Coords, EltTy.bits .f32 = 32 ∨ (Rect.block (s := S4x16x4096x64) S1x4x4096x64.size (cc0_transform_4 i) (hinb0_4 i)).WholeWords (EltTy.packing .f32)

variable [Facts₀]

def dot_S4x4096x64_S4x4096x64_S4x64x64_1_1_2_2_0_0 : DotDims S4x4096x64 S4x4096x64 S4x64x64 where
  lhsContracting := [1]
  rhsContracting := [1]
  lhsNonContracting := [2]
  rhsNonContracting := [2]
  lhsBatch := [0]
  rhsBatch := [0]
  wf := dot_S4x4096x64_S4x4096x64_S4x64x64_1_1_2_2_0_0_wf
def dot_S4x4096x64_S4x64x64_S4x4096x64_2_1_1_2_0_0 : DotDims S4x4096x64 S4x64x64 S4x4096x64 where
  lhsContracting := [2]
  rhsContracting := [1]
  lhsNonContracting := [1]
  rhsNonContracting := [2]
  lhsBatch := [0]
  rhsBatch := [0]
  wf := dot_S4x4096x64_S4x64x64_S4x4096x64_2_1_1_2_0_0_wf

abbrev win0_0 : Pipeline.Window sig grid0 :=
  Pipeline.Window.ofSpec (Memref.whole main_arg0) S1x4x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x4x4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S4x4096 : Shape := ⟨2, ![4, 4096]⟩
abbrev S4x1x4096x1 : Shape := ⟨4, ![4, 1, 4096, 1]⟩
abbrev S_ : Shape := ⟨0, ![]⟩
abbrev S4x16x4096 : Shape := ⟨3, ![4, 16, 4096]⟩
abbrev S4x16x4096x1 : Shape := ⟨4, ![4, 16, 4096, 1]⟩
abbrev S4x16x64 : Shape := ⟨3, ![4, 16, 64]⟩
abbrev S4x16x1x64 : Shape := ⟨4, ![4, 16, 1, 64]⟩
abbrev S4x16x64x64 : Shape := ⟨4, ![4, 16, 64, 64]⟩

abbrev nBuf : Space → Nat
  | .hbm => 41
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x4096, .f32⟩
  | .hbm, ⟨4, _⟩ => ⟨S4x1x4096x1, .f32⟩
  | .hbm, ⟨5, _⟩ => ⟨S4x16x4096x64, .f32⟩
  | .hbm, ⟨6, _⟩ => ⟨S4x16x4096x64, .f32⟩
  | .hbm, ⟨7, _⟩ => ⟨S4x16x4096x64, .f32⟩
  | .hbm, ⟨8, _⟩ => ⟨S4x16x4096x64, .f32⟩
  | .hbm, ⟨9, _⟩ => ⟨S4x16x4096x64, .f32⟩
  | .hbm, ⟨10, _⟩ => ⟨S4x16x4096x64, .f32⟩
  | .hbm, ⟨11, _⟩ => ⟨S_, .f32⟩
  | .hbm, ⟨12, _⟩ => ⟨S4x16x4096, .f32⟩
  | .hbm, ⟨13, _⟩ => ⟨S_, .f32⟩
  | .hbm, ⟨14, _⟩ => ⟨S4x16x4096, .f32⟩
  | .hbm, ⟨15, _⟩ => ⟨S4x16x4096, .f32⟩
  | .hbm, ⟨16, _⟩ => ⟨S4x16x4096x1, .f32⟩
  | .hbm, ⟨17, _⟩ => ⟨S4x16x4096x64, .f32⟩
  | .hbm, ⟨18, _⟩ => ⟨S4x16x4096x64, .f32⟩
  | .hbm, ⟨19, _⟩ => ⟨S4x16x4096x64, .f32⟩
  | .hbm, ⟨20, _⟩ => ⟨S_, .f32⟩
  | .hbm, ⟨21, _⟩ => ⟨S4x16x4096, .f32⟩
  | .hbm, ⟨22, _⟩ => ⟨S4x16x4096x1, .f32⟩
  | .hbm, ⟨23, _⟩ => ⟨S4x16x4096x64, .f32⟩
  | .hbm, ⟨24, _⟩ => ⟨S4x16x4096x64, .f32⟩
  | .hbm, ⟨25, _⟩ => ⟨S_, .f32⟩
  | .hbm, ⟨26, _⟩ => ⟨S4x16x64, .f32⟩
  | .hbm, ⟨27, _⟩ => ⟨S_, .f32⟩
  | .hbm, ⟨28, _⟩ => ⟨S4x16x64, .f32⟩
  | .hbm, ⟨29, _⟩ => ⟨S4x16x64, .f32⟩
  | .hbm, ⟨30, _⟩ => ⟨S4x16x1x64, .f32⟩
  | .hbm, ⟨31, _⟩ => ⟨S4x16x4096x64, .f32⟩
  | .hbm, ⟨32, _⟩ => ⟨S4x16x4096x64, .f32⟩
  | .hbm, ⟨33, _⟩ => ⟨S4x16x4096x64, .f32⟩
  | .hbm, ⟨34, _⟩ => ⟨S_, .f32⟩
  | .hbm, ⟨35, _⟩ => ⟨S4x16x64, .f32⟩
  | .hbm, ⟨36, _⟩ => ⟨S4x16x1x64, .f32⟩
  | .hbm, ⟨37, _⟩ => ⟨S4x16x4096x64, .f32⟩
  | .hbm, ⟨38, _⟩ => ⟨S4x16x4096x64, .f32⟩
  | .hbm, ⟨39, _⟩ => ⟨S4x16x64x64, .f32⟩
  | .hbm, ⟨40, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S4x4096_S4x1x4096x1_0_2 : S4x4096.BroadcastsInDim S4x1x4096x1 (![0, 2] : Fin 2 → Fin S4x1x4096x1.rank)
  bcast_S4x1x4096x1_S4x16x4096x64_0_1_2_3 : S4x1x4096x1.BroadcastsInDim S4x16x4096x64 (![0, 1, 2, 3] : Fin 4 → Fin S4x16x4096x64.rank)
  reducesTo_S4x16x4096x64_S4x16x4096_d3 : S4x16x4096x64.ReducesTo [3] S4x16x4096
  h_S_ : 0 < S_.numel
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x64_0_1_2_3 : S4x16x4096x1.BroadcastsInDim S4x16x4096x64 (![0, 1, 2, 3] : Fin 4 → Fin S4x16x4096x64.rank)
  reducesTo_S4x16x4096x64_S4x16x64_d2 : S4x16x4096x64.ReducesTo [2] S4x16x64
  bcast_S_S4x16x64 : S_.BroadcastsInDim S4x16x64 (![] : Fin 0 → Fin S4x16x64.rank)
  bcast_S4x16x64_S4x16x1x64_0_1_3 : S4x16x64.BroadcastsInDim S4x16x1x64 (![0, 1, 3] : Fin 3 → Fin S4x16x1x64.rank)
  bcast_S4x16x1x64_S4x16x4096x64_0_1_2_3 : S4x16x1x64.BroadcastsInDim S4x16x4096x64 (![0, 1, 2, 3] : Fin 4 → Fin S4x16x4096x64.rank)
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]

variable [Facts₀]

def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf

class Facts : Prop extends Facts₀ where

variable [Facts]
-- ==== Proof.Attention.lean ====
/-
  Kernelized ("linear") attention with an exponential feature map, one head at a time, on the extended reals.

  For one head, with queries q, keys k, values v (4096 positions, 64 features) and a mask m over the positions, every
  row of q, k, v is first multiplied by its position's mask entry. The masked queries are normalised by a softmax along
  the FEATURES of each position, the masked keys by a softmax along the POSITIONS of each feature, and the result is

      attn(s, e) = ∑ d, softmax_d (q s · m s) d * ∑ s', softmax_s' (k · d * m ·) s' * (v s' e * m s'),

  the inner sum being the 64 × 64 matrix Ksᵀ (V∘m) and the outer one the product of the normalised queries with it.
  A softmax is taken as written in both programs: the family's maximum is the fold of `max` from the pattern of -∞, the
  shifted family is exponentiated, and each exponential is divided by their sum.

  The whole result array is this head function applied at each batch entry and head to the slices of the argument
  arrays at that batch entry and head, the mask's row at the batch entry.
-/
import Idealize.ShloMosaic.PureOps.Ideal
import Idealize.ShloMosaic.Lib.ValueIdx

noncomputable section

namespace Cert.Attention

open Idealize.ShloMosaic Idealize.ShloMosaic.ValueIdx

/-- The value both programs start a running maximum from: the f32 pattern of -∞, kept as a pattern. -/
abbrev negInf : EReal := Ideal.ofBits .f32 0xFF800000#32

/-- The softmax of a finite family at one member: its exponential shifted by the family's maximum, over the sum of
    all the shifted exponentials. -/
def softmax {ι : Type} [Fintype ι] (x : ι → EReal) (i : ι) : EReal :=
  Ideal.div (Ideal.exp (x i - Finset.univ.fold max negInf x))
    (∑ k, Ideal.exp (x k - Finset.univ.fold max negInf x))

/-- One head: entry `(s, e)` of softmax-over-features(q∘m) · (softmax-over-positions(k∘m)ᵀ · (v∘m)). -/
def head (q k v : Fin 4096 → Fin 64 → EReal) (mk : Fin 4096 → EReal) (s : Fin 4096) (e : Fin 64) : EReal :=
  ∑ d : Fin 64, softmax (fun d' => q s d' * mk s) d
    * ∑ s' : Fin 4096, softmax (fun s'' => k s'' d * mk s'') s' * (v s' e * mk s')

/-- The result at batch entry `b`, head `h`, position `s`, feature `e`. -/
def attnAt (Q K V : (⟨4, ![4, 16, 4096, 64]⟩ : Shape).Idx → EReal) (M : (⟨2, ![4, 4096]⟩ : Shape).Idx → EReal)
    (b : Fin 4) (h : Fin 16) (s : Fin 4096) (e : Fin 64) : EReal :=
  head (fun s d => Q (ix4 b h s d)) (fun s d => K (ix4 b h s d)) (fun s d => V (ix4 b h s d)) (fun s => M (ix2 b s)) s e

/-- The whole result array, index by index. -/
def attn (Q K V : (⟨4, ![4, 16, 4096, 64]⟩ : Shape).Idx → EReal) (M : (⟨2, ![4, 4096]⟩ : Shape).Idx → EReal) :
    (⟨4, ![4, 16, 4096, 64]⟩ : Shape).Idx → EReal :=
  fun i => attnAt Q K V M (i 0) (i 1) (i 2) (i 3)

theorem attn_ix4 (Q K V : (⟨4, ![4, 16, 4096, 64]⟩ : Shape).Idx → EReal) (M : (⟨2, ![4, 4096]⟩ : Shape).Idx → EReal)
    (b : Fin 4) (h : Fin 16) (s : Fin 4096) (e : Fin 64) :
    attn Q K V M (ix4 b h s e) = attnAt Q K V M b h s e := rfl

/-- A maximum folded from a start value is at least the start value, so taking the maximum with the start value once
    more changes nothing (the reference does so after its reduction). -/
theorem max_start_fold {ι : Type} [Fintype ι] (c : EReal) (x : ι → EReal) :
    max c (Finset.univ.fold max c x) = Finset.univ.fold max c x :=
  max_eq_right ((Finset.le_fold_max c).2 (Or.inl le_rfl))

end Cert.Attention

end
-- ==== Proof.LibKeepdims3.lean ====
/-
  Trailing-unit-axis forms of the layout operations at rank 3, read at an index, and the index a one-axis
  reduction inserts.

  A reduction along the last axis that keeps the axis (`max(axis = -1, keepdims = True)`) produces an array of shape
  `[a, b]` that is recast to `[a, b, 1]` and then repeated along the last axis to `[a, b, c]`; the way back drops the
  unit axis again. None of these steps moves a number: entry `(p, q, u)` of the recast array is entry `(p, q)` of the
  operand (row-major position `(p·b + q)·1 + 0` against `p·b + q`), and entry `(p, q, k)` of the repeated array is entry
  `(p, q, 0)`. A reduction over one axis reads, at a reduced index, the operand along that axis: reduced index
  `(p, q)` with coordinate `k` inserted last is `(p, q, k)`, and reduced index `p` with `k` inserted last is `(p, k)`.
-/
import Idealize.ShloMosaic.Lib.Pipeline.Value
import Idealize.ShloMosaic.Lib.ValueIdx
import Idealize.ShloMosaic.PureOps.Reduce

namespace Cert.Lib.Keepdims3

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array cast to `[a, b]` reads, at `(p, q)`, the operand at `(p, q, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing the last axis of `[a, b, c]`: the reduced index `(p, q)` with coordinate `k` inserted is `(p, q, k)`. -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- Reducing the last axis of `[a, b]`: the reduced index `p` with coordinate `k` inserted is `(p, k)`. -/
theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

end Cert.Lib.Keepdims3
-- ==== Proof.LibMidAxis3.lean ====
/-
  Middle-unit-axis and mask-column forms of the layout operations at rank 3, read at an index, and the index a
  reduction over the middle axis inserts.

  A reduction along the middle axis of an `[a, b, c]` array that keeps the axis (`max(axis = 1, keepdims = True)`)
  produces an array of shape `[a, c]` that is recast to `[a, 1, c]` and then repeated along the middle axis to
  `[a, b, c]`. A per-position column `[1, 1, b, 1]` (a mask over the `b` positions) is recast to `[b, 1]`, then to
  `[1, b, 1]`, and repeated along the first and last axes to `[a, b, c]`. None of these steps moves a number: entry
  `(p, u, r)` of the recast `[a, 1, c]` array is entry `(p, r)` of the operand (row-major position `(p·1 + u)·c + r`
  against `p·c + r`), entry `(p, q, r)` of the repeated array is entry `(p, 0, r)`; entry `(p, q, r)` of the repeated
  column is the column's entry at position `q`. A reduction over the middle axis reads, at a reduced index `(p, r)`, the
  operand along that axis: `(p, r)` with coordinate `k` inserted in the middle is `(p, k, r)`.
-/
import Idealize.ShloMosaic.Lib.Pipeline.Value
import Idealize.ShloMosaic.Lib.ValueIdx
import Idealize.ShloMosaic.PureOps.Reduce

namespace Cert.Lib.MidAxis3

open Idealize.ShloMosaic Idealize.ShloMosaic.ValueIdx

variable {α : Type}

/-- An `[a, c]` array cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- Reducing the middle axis of `[a, b, c]`: the reduced index `(p, r)` with coordinate `k` inserted is `(p, k, r)`. -/
theorem lift_mid3 {a b c : ℕ} (h : (⟨3, ![a, b, c]⟩ : Shape).Reduces [1] (⟨2, ![a, c]⟩ : Shape)) (p : Fin a) (r : Fin c)
    (k : Fin ((⟨3, ![a, b, c]⟩ : Shape).size 1)) : h.lift (ix2 p r) k = ix3 p (⟨k.val, k.isLt⟩ : Fin b) r := by
  funext d; apply Fin.ext
  fin_cases d <;> rfl

/-- A `[1, 1, b, 1]` column cast to `[b, 1]` reads, at `(q, u)`, the operand at `(0, 0, q, 0)`. -/
theorem shapeCast_11b1_b1_apply {b : ℕ} (x : (⟨4, ![1, 1, b, 1]⟩ : Shape).Idx → α)
    (h : (⟨4, ![1, 1, b, 1]⟩ : Shape).ShapeCasts ⟨2, ![b, 1]⟩) (q : Fin b) (u : Fin 1) :
    shapeCast ⟨2, ![b, 1]⟩ x h (ix2 q u) = x (ix4 (0 : Fin 1) (0 : Fin 1) q (0 : Fin 1)) :=
  shapeCast_apply x h _ _ (by
    have hu : u.val = 0 := by omega
    rw [Shape.rowMajor_val_four, Shape.rowMajor_val_two]
    show ((0 * 1 + 0) * b + q.val) * 1 + 0 = q.val * 1 + u.val
    rw [hu]
    simp only [Nat.zero_mul, Nat.zero_add, Nat.mul_one, Nat.add_zero])

/-- A `[b, 1]` column cast to `[1, b, 1]` reads, at `(u, q, w)`, the operand at `(q, 0)`. -/
theorem shapeCast_b1_1b1_apply {b : ℕ} (x : (⟨2, ![b, 1]⟩ : Shape).Idx → α)
    (h : (⟨2, ![b, 1]⟩ : Shape).ShapeCasts ⟨3, ![1, b, 1]⟩) (u : Fin 1) (q : Fin b) (w : Fin 1) :
    shapeCast ⟨3, ![1, b, 1]⟩ x h (ix3 u q w) = x (ix2 q (0 : Fin 1)) :=
  shapeCast_apply x h _ _ (by
    have hu : u.val = 0 := by omega
    have hw : w.val = 0 := by omega
    rw [Shape.rowMajor_val_three, Shape.rowMajor_val_two]
    show q.val * 1 + 0 = (u.val * b + q.val) * 1 + w.val
    rw [hu, hw, Nat.zero_mul, Nat.zero_add])

/-- A `[1, b, 1]` column broadcast to `[a, b, c]` reads, at `(p, q, r)`, the operand at `(0, q, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

end Cert.Lib.MidAxis3
-- ==== Proof.KernelStages.lean ====
/-
  The kernel body's stages on one block, read at an index, on the extended reals.

  The body works on a block of four heads: arrays of shape [4, 4096, 64] (head, position, feature). Its stages are
  * the mask: the block's column of mask entries, one per position, repeated over heads and features, and the product
    of a data block with it — entry (h, s, d) of the product is the data's entry times the mask entry of position s;
  * a softmax along the features: the maximum and the sum over the last axis are kept as a trailing unit axis and
    repeated along it, so entry (h, s, d) is the softmax of the row (h, s, ·) at d;
  * a softmax along the positions: the same with the middle axis, so entry (h, s, d) is the softmax of the column
    (h, ·, d) at s;
  * the two matrix products into a zero accumulator, batched over the head: contracting the positions of two
    [4, 4096, 64] arrays into [4, 64, 64], and contracting the features of a [4, 4096, 64] array with the middle axis
    of a [4, 64, 64] one.
  Each lemma states one stage over arbitrary operand vectors.
-/
import proofs.«108693_j8589934592226_2_alg».proof.Proof.Gen.KernelIdeal
import proofs.«108693_j8589934592226_2_alg».proof.Proof.Attention
import proofs.«108693_j8589934592226_2_alg».proof.Proof.LibKeepdims3
import proofs.«108693_j8589934592226_2_alg».proof.Proof.LibMidAxis3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stages

open Cert.KernelIdeal Idealize.ShloMosaic Idealize.ShloMosaic.ValueIdx Cert.Attention
open Cert.Lib.Keepdims3 Cert.Lib.MidAxis3

/-! ## The mask -/

/-- A data block [1, 4, 4096, 64] recast to [4, 4096, 64], times the mask column [1, 1, 4096, 1] recast and repeated
    over heads and features: at (h, s, d) the data's entry (0, h, s, d) times the mask's entry of position s. -/
theorem masked_apply (P : FVec Ideal S1x4x4096x64 .f32) (Mk : FVec Ideal S1x1x4096x1 .f32)
    (h0 : S1x4x4096x64.ShapeCasts S4x4096x64) (h1 : S1x1x4096x1.ShapeCasts S4096x1) (h2 : S4096x1.ShapeCasts S1x4096x1)
    (h3 : S1x4096x1.Broadcasts S4x4096x64) (h : Fin 4) (s : Fin 4096) (d : Fin 64) :
    mulf (shapeCast S4x4096x64 P h0) (broadcastTo S4x4096x64 (shapeCast S1x4096x1 (shapeCast S4096x1 Mk h1) h2) h3) (ix3 h s d)
      = P (ix4 (0 : Fin 1) h s d) * Mk (ix4 (0 : Fin 1) (0 : Fin 1) s (0 : Fin 1)) := by
  refine (mulf_apply _ _ _).trans (congrArg₂ (· * ·) ?_ ?_)
  · exact shapeCast_1abc_abc_apply P h0 h s d
  · refine (broadcastTo_1b1_abc_apply _ h3 h s d).trans ?_
    refine (shapeCast_b1_1b1_apply _ h2 (0 : Fin 1) s (0 : Fin 1)).trans ?_
    exact shapeCast_11b1_b1_apply Mk h1 s (0 : Fin 1)

/-! ## Softmax along the features (the last axis) -/

/-- The row maximum kept as a trailing unit axis and repeated along it: at (h, s, d) the fold of `max` from -∞ over the
    row (h, s, ·). -/
theorem rowMax_apply (x : FVec Ideal S4x4096x64 .f32) (hr : S4x4096x64.Reduces [2] S4x4096) (hφ : FKind.Formats .f32)
    (hacc : (0xFF800000#32 : BitVec 32) = FKind.maximumf.neutral .f32 hφ)
    (hsc : S4x4096.ShapeCasts S4x4096x1) (hbc : S4x4096x1.Broadcasts S4x4096x64) (h : Fin 4) (s : Fin 4096) (d : Fin 64) :
    broadcastTo S4x4096x64 (shapeCast S4x4096x1 (multiReduction .maximumf [2] S4x4096 x 0xFF800000#32 hr hφ hacc) hsc) hbc (ix3 h s d)
      = Finset.univ.fold max negInf (fun d' : Fin 64 => x (ix3 h s d')) := by
  refine (broadcastTo_ab1_abc_apply _ hbc h s d).trans ?_
  refine (shapeCast_ab_ab1_apply _ hsc h s (0 : Fin 1)).trans ?_
  refine (Ideal.multiReduction_maximumf_single x _ hr hφ hacc (ix2 h s)).trans ?_
  exact congrArg (Finset.univ.fold max negInf) (funext fun k => congrArg x (lift_last3 hr h s k))

/-- The row sum kept as a trailing unit axis and repeated along it: at (h, s, d) the sum over the row (h, s, ·). -/
theorem rowSum_apply (x : FVec Ideal S4x4096x64 .f32) (hr : S4x4096x64.Reduces [2] S4x4096) (hφ : FKind.Formats .f32)
    (hacc : (0x00000000#32 : BitVec 32) = FKind.add.neutral .f32 hφ)
    (hsc : S4x4096.ShapeCasts S4x4096x1) (hbc : S4x4096x1.Broadcasts S4x4096x64) (h : Fin 4) (s : Fin 4096) (d : Fin 64) :
    broadcastTo S4x4096x64 (shapeCast S4x4096x1 (multiReduction .add [2] S4x4096 x 0x00000000#32 hr hφ hacc) hsc) hbc (ix3 h s d)
      = ∑ d' : Fin 64, x (ix3 h s d') := by
  refine (broadcastTo_ab1_abc_apply _ hbc h s d).trans ?_
  refine (shapeCast_ab_ab1_apply _ hsc h s (0 : Fin 1)).trans ?_
  refine (Ideal.multiReduction_add_single x _ hr hφ hacc (ix2 h s)).trans ?_
  exact Finset.sum_congr rfl fun k _ => congrArg x (lift_last3 hr h s k)

/-- The body's softmax along the features, at (h, s, d): the softmax of the row (h, s, ·) at d. -/
theorem rowSoftmax_apply (x : FVec Ideal S4x4096x64 .f32) (hr : S4x4096x64.Reduces [2] S4x4096) (hφ : FKind.Formats .f32)
    (hmax : (0xFF800000#32 : BitVec 32) = FKind.maximumf.neutral .f32 hφ)
    (hadd : (0x00000000#32 : BitVec 32) = FKind.add.neutral .f32 hφ)
    (hsc : S4x4096.ShapeCasts S4x4096x1) (hbc : S4x4096x1.Broadcasts S4x4096x64) (h : Fin 4) (s : Fin 4096) (d : Fin 64) :
    divf (exp (subf x (broadcastTo S4x4096x64 (shapeCast S4x4096x1 (multiReduction .maximumf [2] S4x4096 x 0xFF800000#32 hr hφ hmax) hsc) hbc)))
        (broadcastTo S4x4096x64 (shapeCast S4x4096x1 (multiReduction .add [2] S4x4096
          (exp (subf x (broadcastTo S4x4096x64 (shapeCast S4x4096x1 (multiReduction .maximumf [2] S4x4096 x 0xFF800000#32 hr hφ hmax) hsc) hbc)))
          0x00000000#32 hr hφ hadd) hsc) hbc) (ix3 h s d)
      = softmax (fun d' : Fin 64 => x (ix3 h s d')) d := by
  have hexp : ∀ d' : Fin 64,
      exp (subf x (broadcastTo S4x4096x64 (shapeCast S4x4096x1 (multiReduction .maximumf [2] S4x4096 x 0xFF800000#32 hr hφ hmax) hsc) hbc)) (ix3 h s d')
        = Ideal.exp (x (ix3 h s d') - Finset.univ.fold max negInf (fun d'' : Fin 64 => x (ix3 h s d''))) := fun d' =>
    congrArg (fun z => Ideal.exp (x (ix3 h s d') - z)) (rowMax_apply x hr hφ hmax hsc hbc h s d')
  refine (divf_apply _ _ _).trans (congrArg₂ Ideal.div (hexp d) ?_)
  refine (rowSum_apply _ hr hφ hadd hsc hbc h s d).trans ?_
  exact Finset.sum_congr rfl fun d' _ => hexp d'

/-! ## Softmax along the positions (the middle axis) -/

/-- The column maximum kept as a middle unit axis and repeated along it: at (h, s, d) the fold of `max` from -∞ over the
    column (h, ·, d). -/
theorem colMax_apply (x : FVec Ideal S4x4096x64 .f32) (hr : S4x4096x64.Reduces [1] S4x64) (hφ : FKind.Formats .f32)
    (hacc : (0xFF800000#32 : BitVec 32) = FKind.maximumf.neutral .f32 hφ)
    (hsc : S4x64.ShapeCasts S4x1x64) (hbc : S4x1x64.Broadcasts S4x4096x64) (h : Fin 4) (s : Fin 4096) (d : Fin 64) :
    broadcastTo S4x4096x64 (shapeCast S4x1x64 (multiReduction .maximumf [1] S4x64 x 0xFF800000#32 hr hφ hacc) hsc) hbc (ix3 h s d)
      = Finset.univ.fold max negInf (fun s' : Fin 4096 => x (ix3 h s' d)) := by
  refine (broadcastTo_a1c_abc_apply _ hbc h s d).trans ?_
  refine (shapeCast_ac_a1c_apply _ hsc h (0 : Fin 1) d).trans ?_
  refine (Ideal.multiReduction_maximumf_single x _ hr hφ hacc (ix2 h d)).trans ?_
  exact congrArg (Finset.univ.fold max negInf) (funext fun k => congrArg x (lift_mid3 hr h d k))

/-- The column sum kept as a middle unit axis and repeated along it: at (h, s, d) the sum over the column (h, ·, d). -/
theorem colSum_apply (x : FVec Ideal S4x4096x64 .f32) (hr : S4x4096x64.Reduces [1] S4x64) (hφ : FKind.Formats .f32)
    (hacc : (0x00000000#32 : BitVec 32) = FKind.add.neutral .f32 hφ)
    (hsc : S4x64.ShapeCasts S4x1x64) (hbc : S4x1x64.Broadcasts S4x4096x64) (h : Fin 4) (s : Fin 4096) (d : Fin 64) :
    broadcastTo S4x4096x64 (shapeCast S4x1x64 (multiReduction .add [1] S4x64 x 0x00000000#32 hr hφ hacc) hsc) hbc (ix3 h s d)
      = ∑ s' : Fin 4096, x (ix3 h s' d) := by
  refine (broadcastTo_a1c_abc_apply _ hbc h s d).trans ?_
  refine (shapeCast_ac_a1c_apply _ hsc h (0 : Fin 1) d).trans ?_
  refine (Ideal.multiReduction_add_single x _ hr hφ hacc (ix2 h d)).trans ?_
  exact Finset.sum_congr rfl fun k _ => congrArg x (lift_mid3 hr h d k)

/-- The body's softmax along the positions, at (h, s, d): the softmax of the column (h, ·, d) at s. -/
theorem colSoftmax_apply (x : FVec Ideal S4x4096x64 .f32) (hr : S4x4096x64.Reduces [1] S4x64) (hφ : FKind.Formats .f32)
    (hmax : (0xFF800000#32 : BitVec 32) = FKind.maximumf.neutral .f32 hφ)
    (hadd : (0x00000000#32 : BitVec 32) = FKind.add.neutral .f32 hφ)
    (hsc : S4x64.ShapeCasts S4x1x64) (hbc : S4x1x64.Broadcasts S4x4096x64) (h : Fin 4) (s : Fin 4096) (d : Fin 64) :
    divf (exp (subf x (broadcastTo S4x4096x64 (shapeCast S4x1x64 (multiReduction .maximumf [1] S4x64 x 0xFF800000#32 hr hφ hmax) hsc) hbc)))
        (broadcastTo S4x4096x64 (shapeCast S4x1x64 (multiReduction .add [1] S4x64
          (exp (subf x (broadcastTo S4x4096x64 (shapeCast S4x1x64 (multiReduction .maximumf [1] S4x64 x 0xFF800000#32 hr hφ hmax) hsc) hbc)))
          0x00000000#32 hr hφ hadd) hsc) hbc) (ix3 h s d)
      = softmax (fun s' : Fin 4096 => x (ix3 h s' d)) s := by
  have hexp : ∀ s' : Fin 4096,
      exp (subf x (broadcastTo S4x4096x64 (shapeCast S4x1x64 (multiReduction .maximumf [1] S4x64 x 0xFF800000#32 hr hφ hmax) hsc) hbc)) (ix3 h s' d)
        = Ideal.exp (x (ix3 h s' d) - Finset.univ.fold max negInf (fun s'' : Fin 4096 => x (ix3 h s'' d))) := fun s' =>
    congrArg (fun z => Ideal.exp (x (ix3 h s' d) - z)) (colMax_apply x hr hφ hmax hsc hbc h s' d)
  refine (divf_apply _ _ _).trans (congrArg₂ Ideal.div (hexp s) ?_)
  refine (colSum_apply _ hr hφ hadd hsc hbc h s d).trans ?_
  exact Finset.sum_congr rfl fun s' _ => hexp s'

/-! ## The two matrix products -/

/-- The dimension numbers of Ksᵀ·V: contract the positions, batch over the head. -/
abbrev dotKV := dot_S4x4096x64_S4x4096x64_S4x64x64_1_1_2_2_0_0
/-- The dimension numbers of Qs·(KsᵀV): contract the features with the middle axis, batch over the head. -/
abbrev dotQ := dot_S4x4096x64_S4x64x64_S4x4096x64_2_1_1_2_0_0

theorem dotKV_lhs_0 (i : S4x64x64.Idx) (q : dotKV.contr.Idx) : (dotKV.lhsIdx i q 0).val = (i 0).val := by
  unfold DotDims.lhsIdx
  rw [dif_pos (show (0 : Fin S4x4096x64.rank) ∈ dotKV.lhsBatch by decide)]
  rfl
theorem dotKV_lhs_1 (i : S4x64x64.Idx) (q : dotKV.contr.Idx) : (dotKV.lhsIdx i q 1).val = (q ⟨0, by decide⟩).val :=
  dotKV.lhsIdx_val_of_single rfl i q
theorem dotKV_lhs_2 (i : S4x64x64.Idx) (q : dotKV.contr.Idx) : (dotKV.lhsIdx i q 2).val = (i 1).val := by
  unfold DotDims.lhsIdx
  rw [dif_neg (show ¬(2 : Fin S4x4096x64.rank) ∈ dotKV.lhsBatch by decide), dif_pos (show (2 : Fin S4x4096x64.rank) ∈ dotKV.lhsNonContracting by decide)]
  rfl
theorem dotKV_rhs_0 (i : S4x64x64.Idx) (q : dotKV.contr.Idx) : (dotKV.rhsIdx i q 0).val = (i 0).val := by
  unfold DotDims.rhsIdx
  rw [dif_pos (show (0 : Fin S4x4096x64.rank) ∈ dotKV.rhsBatch by decide)]
  rfl
theorem dotKV_rhs_1 (i : S4x64x64.Idx) (q : dotKV.contr.Idx) : (dotKV.rhsIdx i q 1).val = (q ⟨0, by decide⟩).val :=
  dotKV.rhsIdx_val_of_single rfl i q
theorem dotKV_rhs_2 (i : S4x64x64.Idx) (q : dotKV.contr.Idx) : (dotKV.rhsIdx i q 2).val = (i 2).val := by
  unfold DotDims.rhsIdx
  rw [dif_neg (show ¬(2 : Fin S4x4096x64.rank) ∈ dotKV.rhsBatch by decide), dif_pos (show (2 : Fin S4x4096x64.rank) ∈ dotKV.rhsNonContracting by decide)]
  rfl

/-- Ksᵀ·V into a zero accumulator, at (h, d, e): the sum over the positions of a(h, s, d) · b(h, s, e). -/
theorem keysValues_apply (a b : FVec Ideal S4x4096x64 .f32) (h : Fin 4) (d e : Fin 64) :
    matmul dotKV none a b (constant (F := Ideal) S4x64x64 .f32 0x00000000#32) (ix3 h d e)
      = ∑ s : Fin 4096, a (ix3 h s d) * b (ix3 h s e) := by
  refine (Ideal.matmul_constant_zero_apply dotKV none a b (ix3 h d e)).trans ?_
  rw [← Equiv.sum_comp (contrEquiv1 dotKV 4096 rfl rfl).symm]
  refine Finset.sum_congr rfl fun k _ => ?_
  have hk := contrEquiv1_symm_val dotKV 4096 rfl rfl k
  have el : dotKV.lhsIdx (ix3 h d e) ((contrEquiv1 dotKV 4096 rfl rfl).symm k) = ix3 h k d := funext fun ax => Fin.ext (by
    match ax with
    | ⟨0, _⟩ => exact dotKV_lhs_0 _ _
    | ⟨1, _⟩ => exact (dotKV_lhs_1 _ _).trans hk
    | ⟨2, _⟩ => exact dotKV_lhs_2 _ _)
  have er : dotKV.rhsIdx (ix3 h d e) ((contrEquiv1 dotKV 4096 rfl rfl).symm k) = ix3 h k e := funext fun ax => Fin.ext (by
    match ax with
    | ⟨0, _⟩ => exact dotKV_rhs_0 _ _
    | ⟨1, _⟩ => exact (dotKV_rhs_1 _ _).trans hk
    | ⟨2, _⟩ => exact dotKV_rhs_2 _ _)
  rw [el, er]

theorem dotQ_lhs_0 (i : S4x4096x64.Idx) (q : dotQ.contr.Idx) : (dotQ.lhsIdx i q 0).val = (i 0).val := by
  unfold DotDims.lhsIdx
  rw [dif_pos (show (0 : Fin S4x4096x64.rank) ∈ dotQ.lhsBatch by decide)]
  rfl
theorem dotQ_lhs_1 (i : S4x4096x64.Idx) (q : dotQ.contr.Idx) : (dotQ.lhsIdx i q 1).val = (i 1).val := by
  unfold DotDims.lhsIdx
  rw [dif_neg (show ¬(1 : Fin S4x4096x64.rank) ∈ dotQ.lhsBatch by decide), dif_pos (show (1 : Fin S4x4096x64.rank) ∈ dotQ.lhsNonContracting by decide)]
  rfl
theorem dotQ_lhs_2 (i : S4x4096x64.Idx) (q : dotQ.contr.Idx) : (dotQ.lhsIdx i q 2).val = (q ⟨0, by decide⟩).val :=
  dotQ.lhsIdx_val_of_single rfl i q
theorem dotQ_rhs_0 (i : S4x4096x64.Idx) (q : dotQ.contr.Idx) : (dotQ.rhsIdx i q 0).val = (i 0).val := by
  unfold DotDims.rhsIdx
  rw [dif_pos (show (0 : Fin S4x64x64.rank) ∈ dotQ.rhsBatch by decide)]
  rfl
theorem dotQ_rhs_1 (i : S4x4096x64.Idx) (q : dotQ.contr.Idx) : (dotQ.rhsIdx i q 1).val = (q ⟨0, by decide⟩).val :=
  dotQ.rhsIdx_val_of_single rfl i q
theorem dotQ_rhs_2 (i : S4x4096x64.Idx) (q : dotQ.contr.Idx) : (dotQ.rhsIdx i q 2).val = (i 2).val := by
  unfold DotDims.rhsIdx
  rw [dif_neg (show ¬(2 : Fin S4x64x64.rank) ∈ dotQ.rhsBatch by decide), dif_pos (show (2 : Fin S4x64x64.rank) ∈ dotQ.rhsNonContracting by decide)]
  rfl

/-- Qs·(KsᵀV) into a zero accumulator, at (h, s, e): the sum over the features of a(h, s, d) · b(h, d, e). -/
theorem queriesDot_apply (a : FVec Ideal S4x4096x64 .f32) (b : FVec Ideal S4x64x64 .f32) (h : Fin 4) (s : Fin 4096) (e : Fin 64) :
    matmul dotQ none a b (constant (F := Ideal) S4x4096x64 .f32 0x00000000#32) (ix3 h s e)
      = ∑ d : Fin 64, a (ix3 h s d) * b (ix3 h d e) := by
  refine (Ideal.matmul_constant_zero_apply dotQ none a b (ix3 h s e)).trans ?_
  rw [← Equiv.sum_comp (contrEquiv1 dotQ 64 rfl rfl).symm]
  refine Finset.sum_congr rfl fun k _ => ?_
  have hk := contrEquiv1_symm_val dotQ 64 rfl rfl k
  have el : dotQ.lhsIdx (ix3 h s e) ((contrEquiv1 dotQ 64 rfl rfl).symm k) = ix3 h s k := funext fun ax => Fin.ext (by
    match ax with
    | ⟨0, _⟩ => exact dotQ_lhs_0 _ _
    | ⟨1, _⟩ => exact dotQ_lhs_1 _ _
    | ⟨2, _⟩ => exact (dotQ_lhs_2 _ _).trans hk)
  have er : dotQ.rhsIdx (ix3 h s e) ((contrEquiv1 dotQ 64 rfl rfl).symm k) = ix3 h k e := funext fun ax => Fin.ext (by
    match ax with
    | ⟨0, _⟩ => exact dotQ_rhs_0 _ _
    | ⟨1, _⟩ => exact (dotQ_rhs_1 _ _).trans hk
    | ⟨2, _⟩ => exact dotQ_rhs_2 _ _)
  rw [el, er]

end Cert.KernelIdeal.Stages

end
-- ==== Proof.KernelPayload.lean ====
/-
  What the kernel body leaves in a block: the head function of the block's slices.

  At a grid point the body holds a block of four heads of each of Q, K, V — shape [1, 4, 4096, 64] — and the block's
  column of mask entries, shape [1, 1, 4096, 1]. What it stores at block index (0, h, s, e) is the head function of
  head h's slices of the three data blocks and of the mask column: the product of the queries' softmax along the
  features with the product, over the positions, of the keys' softmax along the positions and the masked values.
-/
import proofs.«108693_j8589934592226_2_alg».proof.Proof.Gen.KernelIdeal.Skeleton
import proofs.«108693_j8589934592226_2_alg».proof.Proof.KernelStages

noncomputable section

namespace Cert.KernelIdeal.Payload

open Cert.KernelIdeal Cert.KernelIdeal.Gen Cert.KernelIdeal.Stages Idealize.ShloMosaic Idealize.ShloMosaic.ValueIdx Cert.Attention

/-- The body's value at (h, s, e), from the four loaded blocks. -/
theorem pay_apply (P0 P1 P2 : Vec Ideal S1x4x4096x64 .f32) (P3 : Vec Ideal S1x1x4096x1 .f32)
    (h : Fin 4) (s : Fin 4096) (e : Fin 64) :
    k0_pay2 (F := Ideal) P0 P1 P2 P3 (ix3 h s e)
      = head (fun s d => P0 (ix4 (0 : Fin 1) h s d)) (fun s d => P1 (ix4 (0 : Fin 1) h s d))
          (fun s d => P2 (ix4 (0 : Fin 1) h s d)) (fun s => P3 (ix4 (0 : Fin 1) (0 : Fin 1) s (0 : Fin 1))) s e := by
  unfold k0_pay2 head
  refine (queriesDot_apply _ _ h s e).trans (Finset.sum_congr rfl fun d _ => ?_)
  refine congrArg₂ (· * ·) ?_ ?_
  · refine (rowSoftmax_apply _ _ _ _ _ _ _ h s d).trans ?_
    exact congrArg (fun f => softmax f d) (funext fun d' => masked_apply P0 P3 _ _ _ _ h s d')
  · refine (keysValues_apply _ _ h d e).trans (Finset.sum_congr rfl fun s' _ => ?_)
    refine congrArg₂ (· * ·) ?_ (masked_apply P2 P3 _ _ _ _ h s' e)
    refine (colSoftmax_apply _ _ _ _ _ _ _ h s' d).trans ?_
    exact congrArg (fun f => softmax f s') (funext fun s'' => masked_apply P1 P3 _ _ _ _ h s'' d)

end Cert.KernelIdeal.Payload

end
-- ==== Proof.KernelValue.lean ====
/-
  From the blocks to the whole array: the kernel's result array is the attention function of the argument arrays.

  The grid has 4 × 4 points; point (p, g) works on batch entry p and the heads 4g … 4g + 3. Its Q, K, V and output blocks
  are the [1, 4, 4096, 64] blocks at block index (p, g, 0, 0), its mask block the [1, 1, 4096, 1] block at (p, 0, 0, 0)
  of the mask laid out as [4, 1, 4096, 1] before the launch (entry (b, 0, s, 0) of that layout is the mask's (b, s)).
  So block entry (0, h, s, d) of a data window is the array's entry (p, 4g + h, s, d), block entry (0, 0, s, 0) of the mask
  window is the mask's (p, s), and what the point writes back — the head function of its blocks' slices — is the block
  at (p, g, 0, 0) of the attention function of the whole arrays. The sixteen output blocks tile the array: index
  (b, H, s, e) lies in the block of the point (b, H / 4).
-/
import proofs.«108693_j8589934592226_2_alg».proof.Proof.Gen.KernelIdeal.Value
import proofs.«108693_j8589934592226_2_alg».proof.Proof.KernelPayload
import Idealize.ShloMosaic.Lib.StableHlo.Run

noncomputable section

namespace Cert.KernelIdeal.Whole

open Cert.KernelIdeal Cert.KernelIdeal.Gen Cert.KernelIdeal.Payload Idealize.ShloMosaic Idealize.ShloMosaic.TcCoe
open Idealize.SL.Sem Idealize.ShloMosaic.ValueIdx Idealize.ShloMosaic.StableHlo Cert.Attention
open Idealize.ShloMosaic.Pipeline (Dat)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-! ## One point -/

/-- What the body leaves in its output block at (0, h, s, e): the head function of the loaded blocks' slices. -/
theorem block_apply (x0 x1 x2 : Vec Ideal S1x4x4096x64 .f32) (x3 : Vec Ideal S1x1x4096x1 .f32)
    (h : Fin 4) (s : Fin 4096) (e : Fin 64) :
    out0_4 x0 x1 x2 x3 (ix4 (0 : Fin 1) h s e)
      = head (fun s d => x0 (ix4 (0 : Fin 1) h s d)) (fun s d => x1 (ix4 (0 : Fin 1) h s d))
          (fun s d => x2 (ix4 (0 : Fin 1) h s d)) (fun s => x3 (ix4 (0 : Fin 1) (0 : Fin 1) s (0 : Fin 1))) s e := by
  unfold out0_4
  refine (Value.canon4_eq _ _ _ _ _).trans ?_
  simp only [View.ld_unit_zero (S := S1x4x4096x64) offsets_zero, View.ld_unit_zero (S := S1x1x4096x1) offsets_zero]
  have hi : Value.ix4_0 (ix4 (0 : Fin 1) h s e) = ix3 h s e :=
    funext fun a => Fin.ext (by match a with | ⟨0, _⟩ => rfl | ⟨1, _⟩ => rfl | ⟨2, _⟩ => rfl)
  show k0_pay2 (F := Ideal) x0 x1 x2 x3 (Value.ix4_0 (ix4 (0 : Fin 1) h s e)) = _
  rw [hi]
  exact pay_apply x0 x1 x2 x3 h s e

/-- A point whose data blocks are the slices of Q, K, V at batch entry `p` and heads 4g … 4g + 3, and whose mask block is
    the mask's row `p`, leaves at (0, h, s, e) the attention function's entry (p, 4g + h, s, e). -/
theorem point_apply (Q K V : S4x16x4096x64.Idx → EReal) (M : S4x4096.Idx → EReal)
    (x0 x1 x2 : Vec Ideal S1x4x4096x64 .f32) (x3 : Vec Ideal S1x1x4096x1 .f32) (p : Fin 4) (g : Fin 4)
    (hd : ∀ h : Fin 4, 4 * g.val + h.val < 16)
    (e0 : ∀ (h : Fin 4) (s : Fin 4096) (d : Fin 64), x0 (ix4 (0 : Fin 1) h s d) = Q (ix4 p ⟨4 * g.val + h.val, hd h⟩ s d))
    (e1 : ∀ (h : Fin 4) (s : Fin 4096) (d : Fin 64), x1 (ix4 (0 : Fin 1) h s d) = K (ix4 p ⟨4 * g.val + h.val, hd h⟩ s d))
    (e2 : ∀ (h : Fin 4) (s : Fin 4096) (d : Fin 64), x2 (ix4 (0 : Fin 1) h s d) = V (ix4 p ⟨4 * g.val + h.val, hd h⟩ s d))
    (e3 : ∀ s : Fin 4096, x3 (ix4 (0 : Fin 1) (0 : Fin 1) s (0 : Fin 1)) = M (ix2 p s))
    (h : Fin 4) (s : Fin 4096) (e : Fin 64) :
    out0_4 x0 x1 x2 x3 (ix4 (0 : Fin 1) h s e) = attn Q K V M (ix4 p ⟨4 * g.val + h.val, hd h⟩ s e) := by
  refine (block_apply x0 x1 x2 x3 h s e).trans ?_
  rw [attn_ix4]
  unfold attnAt
  simp only [e0, e1, e2, e3]

/-! ## The index maps over the grid -/

/-- The printed index maps, decided over the sixteen points: the three data windows move with the output window on the
    batch and head-group axes and stay at 0 on the others; the mask window follows the batch axis only. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 4) = win0_4.index t (0 : Fin 4) ∧ win0_3.index t (1 : Fin 4) = 0
    ∧ win0_3.index t (2 : Fin 4) = 0 ∧ win0_3.index t (3 : Fin 4) = 0
    ∧ win0_4.index t (2 : Fin 4) = 0 ∧ win0_4.index t (3 : Fin 4) = 0
    ∧ win0_4.index t (0 : Fin 4) < 4 ∧ win0_4.index t (1 : Fin 4) < 4 :=
  (by decide +kernel : ∀ t : Fin grid0.N, _)

/-- Every (batch entry, head group) is some point's output block. -/
theorem idx_onto : ∀ (q0 : Fin 4) (q1 : Fin 4), ∃ t : Fin cfg0.N, win0_4.index t = ![q0.val, q1.val, 0, 0] :=
  (by decide +kernel : ∀ (q0 : Fin 4) (q1 : Fin 4), ∃ t : Fin grid0.N, win0_4.index t = ![q0.val, q1.val, 0, 0])

/-! ## The mask as the region finds it -/

/-- Before the launch the mask [4, 4096] is laid out as [4, 1, 4096, 1]: entry (b, 0, s, 0) is the mask's (b, s). -/
theorem V_mask_apply (c : Dev nD) (b : Fin 4) (s : Fin 4096) :
    V m c main_v0 (ix4 b (0 : Fin 1) s (0 : Fin 1)) = m ((c : Thread nD τ).loc main_arg3) (ix2 b s) := by
  have e : (V m c main_v0 : S4x1x4096x1.Idx → EReal)
      = broadcastInDim S4x1x4096x1 ![0, 2] bcast_S4x4096_S4x1x4096x1_0_2 (m ((c : Thread nD τ).loc main_arg3)) := by
    dsimp only [Gen.V, Gen.hostOps0]; after_results
  rw [e]
  exact broadcastInDim_apply _ bcast_S4x4096_S4x1x4096x1_0_2 _ _ (ix2 b s) (fun a => match a with
    | ⟨0, _⟩ => by show b.val = if (4 : Nat) = 1 then 0 else b.val; rw [if_neg (by decide)]
    | ⟨1, _⟩ => by show s.val = if (4096 : Nat) = 1 then 0 else s.val; rw [if_neg (by decide)])

/-! ## What a point writes back -/

/-- Point `t` writes back block `t` of the attention function of the arrays as the region finds them. -/
theorem flushed_eq (c : Dev nD) (t : Fin cfg0.N) :
    (dats m 0 c).flushed 4 t = ((cfg0.win 4).blk t).view.read (Elt Ideal)
      (attn (V m c main_arg0) (V m c main_arg1) (V m c main_arg2) (m ((c : Thread nD τ).loc main_arg3))) := by
  rw [Value.flushed4]
  obtain ⟨a00, a01, a02, a03, a10, a11, a12, a13, a20, a21, a22, a23, a30, a31, a32, a33, o2, o3, o0, o1⟩ := idx_facts t
  funext y
  obtain ⟨h, s, e, rfl⟩ : ∃ (h : Fin 4) (s : Fin 4096) (e : Fin 64), y = ix4 (0 : Fin 1) h s e :=
    ⟨⟨(y 1).val, (y 1).isLt⟩, ⟨(y 2).val, (y 2).isLt⟩, ⟨(y 3).val, (y 3).isLt⟩, funext fun a => Fin.ext (by
      match a with
      | ⟨0, _⟩ => have hy : (y 0).val < 1 := (y 0).isLt; show (y 0).val = 0; omega
      | ⟨1, _⟩ => rfl
      | ⟨2, _⟩ => rfl
      | ⟨3, _⟩ => rfl)⟩
  show out0_4 (iblk m c 0 t) (iblk m c 1 t) (iblk m c 2 t) (iblk m c 3 t) (ix4 (0 : Fin 1) h s e)
      = attn (V m c main_arg0) (V m c main_arg1) (V m c main_arg2) (m ((c : Thread nD τ).loc main_arg3))
          (((cfg0.win 4).blk t).view.emb (ix4 (0 : Fin 1) h s e))
  have hd : ∀ h' : Fin 4, 4 * (⟨win0_4.index t (1 : Fin 4), o1⟩ : Fin 4).val + h'.val < 16 := fun h' => by
    have := h'.isLt; show 4 * win0_4.index t (1 : Fin 4) + h'.val < 16; omega
  have hemb : ((cfg0.win 4).blk t).view.emb (ix4 (0 : Fin 1) h s e)
      = ix4 (⟨win0_4.index t (0 : Fin 4), o0⟩ : Fin 4) ⟨4 * (⟨win0_4.index t (1 : Fin 4), o1⟩ : Fin 4).val + h.val, hd h⟩ s e :=
    funext fun a => Fin.ext (by
      match a with
      | ⟨0, _⟩ => show win0_4.index t (0 : Fin 4) * 1 + 1 * 0 = win0_4.index t (0 : Fin 4); omega
      | ⟨1, _⟩ => show win0_4.index t (1 : Fin 4) * 4 + 1 * h.val = 4 * win0_4.index t (1 : Fin 4) + h.val; omega
      | ⟨2, _⟩ => show win0_4.index t (2 : Fin 4) * 4096 + 1 * s.val = s.val; omega
      | ⟨3, _⟩ => show win0_4.index t (3 : Fin 4) * 64 + 1 * e.val = e.val; omega)
  rw [hemb]
  refine point_apply _ _ _ _ _ _ _ _ (⟨win0_4.index t (0 : Fin 4), o0⟩ : Fin 4) (⟨win0_4.index t (1 : Fin 4), o1⟩ : Fin 4) hd
    ?_ ?_ ?_ ?_ h s e
  · intro h' s' d'
    show V m c main_arg0 (((cfg0.win 0).blk t).view.emb (ix4 (0 : Fin 1) h' s' d')) = V m c main_arg0 _
    refine congrArg (V m c main_arg0) (funext fun a => Fin.ext ?_)
    match a with
    | ⟨0, _⟩ => show win0_0.index t (0 : Fin 4) * 1 + 1 * 0 = win0_4.index t (0 : Fin 4); omega
    | ⟨1, _⟩ => show win0_0.index t (1 : Fin 4) * 4 + 1 * h'.val = 4 * win0_4.index t (1 : Fin 4) + h'.val; omega
    | ⟨2, _⟩ => show win0_0.index t (2 : Fin 4) * 4096 + 1 * s'.val = s'.val; omega
    | ⟨3, _⟩ => show win0_0.index t (3 : Fin 4) * 64 + 1 * d'.val = d'.val; omega
  · intro h' s' d'
    show V m c main_arg1 (((cfg0.win 1).blk t).view.emb (ix4 (0 : Fin 1) h' s' d')) = V m c main_arg1 _
    refine congrArg (V m c main_arg1) (funext fun a => Fin.ext ?_)
    match a with
    | ⟨0, _⟩ => show win0_1.index t (0 : Fin 4) * 1 + 1 * 0 = win0_4.index t (0 : Fin 4); omega
    | ⟨1, _⟩ => show win0_1.index t (1 : Fin 4) * 4 + 1 * h'.val = 4 * win0_4.index t (1 : Fin 4) + h'.val; omega
    | ⟨2, _⟩ => show win0_1.index t (2 : Fin 4) * 4096 + 1 * s'.val = s'.val; omega
    | ⟨3, _⟩ => show win0_1.index t (3 : Fin 4) * 64 + 1 * d'.val = d'.val; omega
  · intro h' s' d'
    show V m c main_arg2 (((cfg0.win 2).blk t).view.emb (ix4 (0 : Fin 1) h' s' d')) = V m c main_arg2 _
    refine congrArg (V m c main_arg2) (funext fun a => Fin.ext ?_)
    match a with
    | ⟨0, _⟩ => show win0_2.index t (0 : Fin 4) * 1 + 1 * 0 = win0_4.index t (0 : Fin 4); omega
    | ⟨1, _⟩ => show win0_2.index t (1 : Fin 4) * 4 + 1 * h'.val = 4 * win0_4.index t (1 : Fin 4) + h'.val; omega
    | ⟨2, _⟩ => show win0_2.index t (2 : Fin 4) * 4096 + 1 * s'.val = s'.val; omega
    | ⟨3, _⟩ => show win0_2.index t (3 : Fin 4) * 64 + 1 * d'.val = d'.val; omega
  · intro s'
    show V m c main_v0 (((cfg0.win 3).blk t).view.emb (ix4 (0 : Fin 1) (0 : Fin 1) s' (0 : Fin 1))) = _
    have hm : ((cfg0.win 3).blk t).view.emb (ix4 (0 : Fin 1) (0 : Fin 1) s' (0 : Fin 1))
        = ix4 (⟨win0_4.index t (0 : Fin 4), o0⟩ : Fin 4) (0 : Fin 1) s' (0 : Fin 1) :=
      funext fun a => Fin.ext (by
        match a with
        | ⟨0, _⟩ => show win0_3.index t (0 : Fin 4) * 1 + 1 * 0 = win0_4.index t (0 : Fin 4); omega
        | ⟨1, _⟩ => show win0_3.index t (1 : Fin 4) * 1 + 1 * 0 = 0; omega
        | ⟨2, _⟩ => show win0_3.index t (2 : Fin 4) * 4096 + 1 * s'.val = s'.val; omega
        | ⟨3, _⟩ => show win0_3.index t (3 : Fin 4) * 1 + 1 * 0 = 0; omega)
    rw [hm]
    exact V_mask_apply m c _ s'

/-! ## The blocks tile the array -/

/-- An index of the array is in point `t`'s output block iff each coordinate is in the block's range on its axis. -/
theorem mem_blk (t : Fin cfg0.N) (i : S4x16x4096x64.Idx) :
    i ∈ ((cfg0.win 4).blk t).view.set ↔ ∀ a : Fin 4, win0_4.index t a * S1x4x4096x64.size a ≤ (i a).val
      ∧ (i a).val < win0_4.index t a * S1x4x4096x64.size a + S1x4x4096x64.size a := by
  show i ∈ ((View.whole main_v1).slice (win0_4.rect t)).set ↔ _
  rw [View.set_slice_whole, Rect.mem_set_unit]
  exact Iff.rfl

/-- Every index (b, H, s, e) lies in the output block of the point (b, H / 4). -/
theorem cover (i : S4x16x4096x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ := idx_onto ⟨(i 0).val, hi0⟩ ⟨(i 1).val / 4, by omega⟩
  have q0 : win0_4.index t (0 : Fin 4) = (i 0).val := congrFun ht 0
  have q1 : win0_4.index t (1 : Fin 4) = (i 1).val / 4 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 4 ≤ (i 1).val ∧ (i 1).val < win0_4.index t (1 : Fin 4) * 4 + 4; omega
  | ⟨2, _⟩ => show win0_4.index t (2 : Fin 4) * 4096 ≤ (i 2).val ∧ (i 2).val < win0_4.index t (2 : Fin 4) * 4096 + 4096; omega
  | ⟨3, _⟩ => show win0_4.index t (3 : Fin 4) * 64 ≤ (i 3).val ∧ (i 3).val < win0_4.index t (3 : Fin 4) * 64 + 64; omega

/-! ## The array after the run -/

/-- The output array after the run is the attention function of the argument arrays as launched. -/
theorem final (c : Dev nD) :
    (dats m 0 c).arrAt 4 cfg0.N = attn (m ((c : Thread nD τ).loc main_arg0)) (m ((c : Thread nD τ).loc main_arg1))
      (m ((c : Thread nD τ).loc main_arg2)) (m ((c : Thread nD τ).loc main_arg3)) := by
  have hfin := (dats m 0 c).arrAt_eq_of_cover 4
    (attn (V m c main_arg0) (V m c main_arg1) (V m c main_arg2) (m ((c : Thread nD τ).loc main_arg3)))
    (fun t _ => flushed_eq m c t) cover
  rw [V_main_arg0, V_main_arg1, V_main_arg2] at hfin
  exact hfin

/-- Every weakly fair execution of the idealized kernel's program terminates with the result array at the attention
    function of the arguments, the arguments unchanged. -/
theorem run : θ_run defs (onTc (τ := τ) (main (F := Ideal))) ⟨m, fun _ => 0, ρ⟩ fun r => ∀ c : Dev nD,
      r.2.mem ((c : Thread nD τ).loc main_v1) = attn (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibReduce4.lean ====
/-
  The index a one-axis reduction of a rank-4 array inserts, for the last two axes.

  A reduction over one axis reads, at a reduced index, the operand along that axis. For an `[a, b, c, d]` array reduced
  over its last axis, the reduced index `(p, q, r)` with coordinate `k` inserted is `(p, q, r, k)`; reduced over its third
  axis, the reduced index `(p, q, r)` with coordinate `k` inserted is `(p, q, k, r)`.
-/
import Idealize.ShloMosaic.Lib.ValueIdx
import Idealize.ShloMosaic.PureOps.Reduce

namespace Cert.Lib.Reduce4

open Idealize.ShloMosaic Idealize.ShloMosaic.ValueIdx

/-- Reducing the last axis of `[a, b, c, d]`: `(p, q, r)` with `k` inserted is `(p, q, r, k)`. -/
theorem lift_last4 {a b c d : ℕ} (h : (⟨4, ![a, b, c, d]⟩ : Shape).Reduces [3] (⟨3, ![a, b, c]⟩ : Shape)) (p : Fin a) (q : Fin b)
    (r : Fin c) (k : Fin ((⟨4, ![a, b, c, d]⟩ : Shape).size 3)) :
    h.lift (ix3 p q r) k = ix4 p q r (⟨k.val, k.isLt⟩ : Fin d) := by
  funext ax; apply Fin.ext
  fin_cases ax <;> rfl

/-- Reducing the third axis of `[a, b, c, d]`: `(p, q, r)` with `k` inserted is `(p, q, k, r)`. -/
theorem lift_third4 {a b c d : ℕ} (h : (⟨4, ![a, b, c, d]⟩ : Shape).Reduces [2] (⟨3, ![a, b, d]⟩ : Shape)) (p : Fin a) (q : Fin b)
    (r : Fin d) (k : Fin ((⟨4, ![a, b, c, d]⟩ : Shape).size 2)) :
    h.lift (ix3 p q r) k = ix4 p q (⟨k.val, k.isLt⟩ : Fin c) r := by
  funext ax; apply Fin.ext
  fin_cases ax <;> rfl

end Cert.Lib.Reduce4
-- ==== Proof.RefValue.lean ====
/-
  The reference computes the attention function.

  The reference applies, to the whole [4, 16, 4096, 64] arrays at once, the operations the head function is made of:
  the mask row of a batch entry repeated over heads and features and multiplied in; a softmax along the features
  (last axis) of the masked queries and one along the positions (third axis) of the masked keys, each as maximum —
  reduced from -∞ and then once more maximised with -∞, which changes nothing —, shift, exponential, sum from zero,
  quotient; the product of the normalised keys with the masked values contracted over the positions; and the product
  of the normalised queries with that, contracted over the features. Read at an index (b, h, s, e), every stage depends
  on the arguments only through batch entry b and head h, and the whole is the head function of their slices.
-/
import proofs.«108693_j8589934592226_2_alg».proof.Proof.Gen.ReferenceIdeal.Read
import proofs.«108693_j8589934592226_2_alg».proof.Proof.Attention
import proofs.«108693_j8589934592226_2_alg».proof.Proof.LibReduce4
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attention
open Cert.Lib.Reduce4

/-- The arrays as the reference's stages take them. -/
abbrev Arr4 := (⟨S4x16x4096x64, .f32⟩ : BufTy).Contents (Elt Ideal)
abbrev Arr2 := (⟨S4x4096, .f32⟩ : BufTy).Contents (Elt Ideal)

/-! ## The mask multiplied in -/

/-- The mask row of batch entry `b`, repeated over heads and features, at (b, h, s, d): the mask at (b, s). -/
theorem idx_mask (b : Fin 4) (h : Fin 16) (s : Fin 4096) (d : Fin 64) :
    idx_main_v0 (idx_main_v1 (ix4 b h s d)) = ix2 b s :=
  funext fun a => Fin.ext (by match a with | ⟨0, _⟩ => rfl | ⟨1, _⟩ => rfl)

theorem maskedQ_apply (x0 : Arr4) (x3 : Arr2) (b : Fin 4) (h : Fin 16) (s : Fin 4096) (d : Fin 64) :
    val_main_v2 (F := Ideal) x0 x3 (ix4 b h s d) = x0 (ix4 b h s d) * x3 (ix2 b s) := by
  rw [val_main_v2_apply, val_main_v1_apply, val_main_v0_apply]
  exact congrArg (fun j => x0 (ix4 b h s d) * x3 j) (idx_mask b h s d)

theorem maskedK_apply (x1 : Arr4) (x3 : Arr2) (b : Fin 4) (h : Fin 16) (s : Fin 4096) (d : Fin 64) :
    val_main_v4 (F := Ideal) x1 x3 (ix4 b h s d) = x1 (ix4 b h s d) * x3 (ix2 b s) := by
  rw [val_main_v4_apply, val_main_v3_apply, val_main_v0_apply]
  exact congrArg (fun j => x1 (ix4 b h s d) * x3 j) (idx_mask b h s d)

theorem maskedV_apply (x2 : Arr4) (x3 : Arr2) (b : Fin 4) (h : Fin 16) (s : Fin 4096) (d : Fin 64) :
    val_main_v6 (F := Ideal) x2 x3 (ix4 b h s d) = x2 (ix4 b h s d) * x3 (ix2 b s) := by
  rw [val_main_v6_apply, val_main_v5_apply, val_main_v0_apply]
  exact congrArg (fun j => x2 (ix4 b h s d) * x3 j) (idx_mask b h s d)

/-! ## Softmax of the masked queries along the features -/

theorem idx_rowKeep_max (b : Fin 4) (h : Fin 16) (s : Fin 4096) (d : Fin 64) :
    idx_main_v10 (idx_main_v11 (ix4 b h s d)) = ix3 b h s :=
  funext fun a => Fin.ext (by match a with | ⟨0, _⟩ => rfl | ⟨1, _⟩ => rfl | ⟨2, _⟩ => rfl)

theorem idx_rowKeep_sum (b : Fin 4) (h : Fin 16) (s : Fin 4096) (d : Fin 64) :
    idx_main_v15 (idx_main_v16 (ix4 b h s d)) = ix3 b h s :=
  funext fun a => Fin.ext (by match a with | ⟨0, _⟩ => rfl | ⟨1, _⟩ => rfl | ⟨2, _⟩ => rfl)

theorem idx_rowSum (b : Fin 4) (h : Fin 16) (s : Fin 4096) (k : Fin 64) :
    idx_main_v14 (ix3 b h s) k = ix4 b h s k :=
  funext fun a => Fin.ext (by match a with | ⟨0, _⟩ => rfl | ⟨1, _⟩ => rfl | ⟨2, _⟩ => rfl | ⟨3, _⟩ => rfl)

/-- The row maximum of the masked queries at (b, h, s): reduced from -∞ over the features, then maximised with -∞. -/
theorem rowMaxQ_apply (x0 : Arr4) (x3 : Arr2) (b : Fin 4) (h : Fin 16) (s : Fin 4096) :
    val_main_v9 (F := Ideal) x0 x3 (ix3 b h s)
      = Finset.univ.fold max negInf (fun d : Fin 64 => x0 (ix4 b h s d) * x3 (ix2 b s)) := by
  have hR : S4x16x4096x64.Reduces [3] S4x16x4096 := by decide
  rw [val_main_v9_apply, val_main_v8_apply, val_main_cst_0_apply]
  unfold val_main_v7
  refine (congrArg (max negInf) (Host.reduce_eq_fold_single (FloatOps.maximumf (F := Ideal) (φ := .f32))
    (val_main_v2 (F := Ideal) x0 x3) (val_main_cst (F := Ideal)) reducesTo_S4x16x4096x64_S4x16x4096_d3 hR h_S_ (ix3 b h s))).trans ?_
  refine (max_start_fold negInf _).trans ?_
  exact congrArg (Finset.univ.fold max negInf) (funext fun k =>
    (congrArg (val_main_v2 (F := Ideal) x0 x3) (lift_last4 hR b h s k)).trans (maskedQ_apply x0 x3 b h s _))

/-- The shifted exponential of the masked queries at (b, h, s, d). -/
theorem expQ_apply (x0 : Arr4) (x3 : Arr2) (b : Fin 4) (h : Fin 16) (s : Fin 4096) (d : Fin 64) :
    val_main_v13 (F := Ideal) x0 x3 (ix4 b h s d)
      = Ideal.exp (x0 (ix4 b h s d) * x3 (ix2 b s)
          - Finset.univ.fold max negInf (fun d' : Fin 64 => x0 (ix4 b h s d') * x3 (ix2 b s))) := by
  rw [val_main_v13_apply, val_main_v12_apply, val_main_v11_apply, val_main_v10_apply, idx_rowKeep_max b h s d,
    rowMaxQ_apply, maskedQ_apply]
  rfl

/-- The normalised queries at (b, h, s, d): the softmax of the masked row (b, h, s, ·) at d. -/
theorem softmaxQ_apply (x0 : Arr4) (x3 : Arr2) (b : Fin 4) (h : Fin 16) (s : Fin 4096) (d : Fin 64) :
    val_main_v17 (F := Ideal) x0 x3 (ix4 b h s d) = softmax (fun d' : Fin 64 => x0 (ix4 b h s d') * x3 (ix2 b s)) d := by
  rw [val_main_v17_apply, val_main_v16_apply, val_main_v15_apply, idx_rowKeep_sum b h s d, val_main_v14_apply,
    val_main_cst_1_apply]
  unfold softmax
  refine congrArg₂ Ideal.div (expQ_apply x0 x3 b h s d) ?_
  refine ((congrArg (· + _) Ideal.ofBits_zero_f32).trans (zero_add _)).trans ?_
  exact Finset.sum_congr rfl fun k _ =>
    (congrArg (val_main_v13 (F := Ideal) x0 x3) (idx_rowSum b h s k)).trans (expQ_apply x0 x3 b h s k)

/-! ## Softmax of the masked keys along the positions -/

theorem idx_colKeep_max (b : Fin 4) (h : Fin 16) (s : Fin 4096) (d : Fin 64) :
    idx_main_v21 (idx_main_v22 (ix4 b h s d)) = ix3 b h d :=
  funext fun a => Fin.ext (by match a with | ⟨0, _⟩ => rfl | ⟨1, _⟩ => rfl | ⟨2, _⟩ => rfl)

theorem idx_colKeep_sum (b : Fin 4) (h : Fin 16) (s : Fin 4096) (d : Fin 64) :
    idx_main_v26 (idx_main_v27 (ix4 b h s d)) = ix3 b h d :=
  funext fun a => Fin.ext (by match a with | ⟨0, _⟩ => rfl | ⟨1, _⟩ => rfl | ⟨2, _⟩ => rfl)

theorem idx_colSum (b : Fin 4) (h : Fin 16) (d : Fin 64) (k : Fin 4096) :
    idx_main_v25 (ix3 b h d) k = ix4 b h k d :=
  funext fun a => Fin.ext (by match a with | ⟨0, _⟩ => rfl | ⟨1, _⟩ => rfl | ⟨2, _⟩ => rfl | ⟨3, _⟩ => rfl)

/-- The column maximum of the masked keys at (b, h, d): reduced from -∞ over the positions, then maximised with -∞. -/
theorem colMaxK_apply (x1 : Arr4) (x3 : Arr2) (b : Fin 4) (h : Fin 16) (d : Fin 64) :
    val_main_v20 (F := Ideal) x1 x3 (ix3 b h d)
      = Finset.univ.fold max negInf (fun s : Fin 4096 => x1 (ix4 b h s d) * x3 (ix2 b s)) := by
  have hR : S4x16x4096x64.Reduces [2] S4x16x64 := by decide
  rw [val_main_v20_apply, val_main_v19_apply, val_main_cst_3_apply]
  unfold val_main_v18
  refine (congrArg (max negInf) (Host.reduce_eq_fold_single (FloatOps.maximumf (F := Ideal) (φ := .f32))
    (val_main_v4 (F := Ideal) x1 x3) (val_main_cst_2 (F := Ideal)) reducesTo_S4x16x4096x64_S4x16x64_d2 hR h_S_ (ix3 b h d))).trans ?_
  refine (max_start_fold negInf _).trans ?_
  exact congrArg (Finset.univ.fold max negInf) (funext fun k =>
    (congrArg (val_main_v4 (F := Ideal) x1 x3) (lift_third4 hR b h d k)).trans (maskedK_apply x1 x3 b h _ d))

/-- The shifted exponential of the masked keys at (b, h, s, d). -/
theorem expK_apply (x1 : Arr4) (x3 : Arr2) (b : Fin 4) (h : Fin 16) (s : Fin 4096) (d : Fin 64) :
    val_main_v24 (F := Ideal) x1 x3 (ix4 b h s d)
      = Ideal.exp (x1 (ix4 b h s d) * x3 (ix2 b s)
          - Finset.univ.fold max negInf (fun s' : Fin 4096 => x1 (ix4 b h s' d) * x3 (ix2 b s'))) := by
  rw [val_main_v24_apply, val_main_v23_apply, val_main_v22_apply, val_main_v21_apply, idx_colKeep_max b h s d,
    colMaxK_apply, maskedK_apply]
  rfl

/-- The normalised keys at (b, h, s, d): the softmax of the masked column (b, h, ·, d) at s. -/
theorem softmaxK_apply (x1 : Arr4) (x3 : Arr2) (b : Fin 4) (h : Fin 16) (s : Fin 4096) (d : Fin 64) :
    val_main_v28 (F := Ideal) x1 x3 (ix4 b h s d) = softmax (fun s' : Fin 4096 => x1 (ix4 b h s' d) * x3 (ix2 b s')) s := by
  rw [val_main_v28_apply, val_main_v27_apply, val_main_v26_apply, idx_colKeep_sum b h s d, val_main_v25_apply,
    val_main_cst_4_apply]
  unfold softmax
  refine congrArg₂ Ideal.div (expK_apply x1 x3 b h s d) ?_
  refine ((congrArg (· + _) Ideal.ofBits_zero_f32).trans (zero_add _)).trans ?_
  exact Finset.sum_congr rfl fun k _ =>
    (congrArg (val_main_v24 (F := Ideal) x1 x3) (idx_colSum b h d k)).trans (expK_apply x1 x3 b h k d)

/-! ## The two products, and the whole -/

theorem idx_kv_lhs (b : Fin 4) (h : Fin 16) (d e : Fin 64) (k : Fin 4096) : lidx_main_v29 (ix4 b h d e) k = ix4 b h k d :=
  funext fun a => Fin.ext (by match a with | ⟨0, _⟩ => rfl | ⟨1, _⟩ => rfl | ⟨2, _⟩ => rfl | ⟨3, _⟩ => rfl)
theorem idx_kv_rhs (b : Fin 4) (h : Fin 16) (d e : Fin 64) (k : Fin 4096) : ridx_main_v29 (ix4 b h d e) k = ix4 b h k e :=
  funext fun a => Fin.ext (by match a with | ⟨0, _⟩ => rfl | ⟨1, _⟩ => rfl | ⟨2, _⟩ => rfl | ⟨3, _⟩ => rfl)
theorem idx_q_lhs (b : Fin 4) (h : Fin 16) (s : Fin 4096) (e : Fin 64) (k : Fin 64) : lidx_main_v30 (ix4 b h s e) k = ix4 b h s k :=
  funext fun a => Fin.ext (by match a with | ⟨0, _⟩ => rfl | ⟨1, _⟩ => rfl | ⟨2, _⟩ => rfl | ⟨3, _⟩ => rfl)
theorem idx_q_rhs (b : Fin 4) (h : Fin 16) (s : Fin 4096) (e : Fin 64) (k : Fin 64) : ridx_main_v30 (ix4 b h s e) k = ix4 b h k e :=
  funext fun a => Fin.ext (by match a with | ⟨0, _⟩ => rfl | ⟨1, _⟩ => rfl | ⟨2, _⟩ => rfl | ⟨3, _⟩ => rfl)

/-- The reference's result at (b, h, s, e) is the head function of the arguments' slices at batch entry b and head h. -/
theorem ref_apply (x0 x1 x2 : Arr4) (x3 : Arr2) (b : Fin 4) (h : Fin 16) (s : Fin 4096) (e : Fin 64) :
    val_main_v30 (F := Ideal) x0 x1 x2 x3 (ix4 b h s e) = attnAt x0 x1 x2 x3 b h s e := by
  rw [val_main_v30_apply]
  unfold attnAt head
  refine Finset.sum_congr rfl fun d _ => ?_
  rw [idx_q_lhs b h s e d, idx_q_rhs b h s e d, softmaxQ_apply, val_main_v29_apply]
  refine congrArg (fun z : EReal => softmax (fun d' : Fin 64 => x0 (ix4 b h s d') * x3 (ix2 b s)) d * z)
    (Finset.sum_congr rfl fun s' _ => ?_)
  rw [idx_kv_lhs b h d e s', idx_kv_rhs b h d e s', softmaxK_apply, maskedV_apply]

/-- The reference's result array is the attention function of the argument arrays. -/
theorem ref_eq (x0 x1 x2 : Arr4) (x3 : Arr2) : val_main_v30 (F := Ideal) x0 x1 x2 x3 = attn x0 x1 x2 x3 := by
  funext i
  obtain ⟨b, h, s, e, rfl⟩ : ∃ (b : Fin 4) (h : Fin 16) (s : Fin 4096) (e : Fin 64), i = ix4 b h s e :=
    ⟨i 0, i 1, i 2, i 3, eq_ix4 i⟩
  exact ref_apply x0 x1 x2 x3 b h s e

end Cert.ReferenceIdeal.RefValue

end
-- ==== Proof.lean ====
/-
  The certificate: a Pallas kernel for kernelized attention with an exponential feature map against its jnp reference.

  Both programs compute, per batch entry and head, softmax-over-features(Q∘m) · (softmax-over-positions(K∘m)ᵀ · (V∘m))
  for a mask m over the positions (Proof/Attention.lean states this function on the extended reals). The kernel does
  so four heads at a time over a 4 × 4 grid, one [1, 4, 4096, 64] block of Q, K, V and of the result per point; the
  reference on the whole [4, 16, 4096, 64] arrays. On the extended reals every operation of the kernel's body is the
  reference's operation restricted to the block — a softmax's maximum and sum run along an axis that lies inside a
  block, and the two contractions run over the positions and the features of one head — so the two results agree index
  by index without any algebraic law: no rearrangement of a sum is needed beyond reading each reduction as a sum or a
  fold over its axis, and the precondition is never opened.

  * Proof/KernelStages.lean, Proof/KernelPayload.lean: the kernel body's value on a block is the head function;
  * Proof/KernelValue.lean: the sixteen blocks tile the result array, which is therefore the attention function;
  * Proof/RefValue.lean: the reference's result is the same function.
  The three frames are the generated frame runs; the idealization rewrote nothing, so `preserves` is trivial.
-/
import proofs.«108693_j8589934592226_2_alg».proof.Defs
import proofs.«108693_j8589934592226_2_alg».proof.Proof.Gen.Kernel
import proofs.«108693_j8589934592226_2_alg».proof.Proof.Gen.Kernel.Skeleton
import proofs.«108693_j8589934592226_2_alg».proof.Proof.Gen.Kernel.Launch
import proofs.«108693_j8589934592226_2_alg».proof.Proof.Gen.Kernel.Points
import proofs.«108693_j8589934592226_2_alg».proof.Proof.Gen.Kernel.Frame
import proofs.«108693_j8589934592226_2_alg».proof.Proof.Gen.KernelIdeal
import proofs.«108693_j8589934592226_2_alg».proof.Proof.Gen.KernelIdeal.Skeleton
import proofs.«108693_j8589934592226_2_alg».proof.Proof.Gen.KernelIdeal.Launch
import proofs.«108693_j8589934592226_2_alg».proof.Proof.Gen.KernelIdeal.Points
import proofs.«108693_j8589934592226_2_alg».proof.Proof.Gen.KernelIdeal.Frame
import proofs.«108693_j8589934592226_2_alg».proof.Proof.Gen.ReferenceIdeal
import proofs.«108693_j8589934592226_2_alg».proof.Proof.Gen.Pre_finite_inputs
import proofs.«108693_j8589934592226_2_alg».proof.Proof.Gen.KernelIdeal.Value
import proofs.«108693_j8589934592226_2_alg».proof.Proof.Gen.ReferenceIdeal.Run
import proofs.«108693_j8589934592226_2_alg».proof.Proof.Gen.ReferenceIdeal.Read
import proofs.«108693_j8589934592226_2_alg».proof.Proof.KernelValue
import proofs.«108693_j8589934592226_2_alg».proof.Proof.RefValue
import Idealize.ShloMosaic.Adequacy
import Idealize.ShloMosaic.Init

noncomputable section

namespace Cert.Proof

open Idealize.ShloMosaic Idealize.SL.Sem

/-- The word-level kernel's frame: its generated frame run. -/
theorem frame_kernel : Cert.frame_Kernel := fun m ρ _ => Cert.Kernel.Gen.frame m ρ

/-- The idealized kernel's frame: its generated frame run. -/
theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing in the kernel. -/
theorem preserves : Cert.preserves_Kernel_KernelIdeal := trivial

/-- From memories agreeing on the four arguments both programs end with the attention function of the arguments. -/
theorem algebraic : Cert.algebraic_KernelIdeal_ReferenceIdeal := by
  intro m ρ m' ρ' _ hagree
  refine ⟨fun c => Cert.Attention.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
